-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x64 : Shape := ⟨2, ![800000, 64]⟩
abbrev S192x128 : Shape := ⟨2, ![192, 128]⟩
abbrev S128 : Shape := ⟨1, ![128]⟩
abbrev S128x128 : Shape := ⟨2, ![128, 128]⟩
abbrev S256x128 : Shape := ⟨2, ![256, 128]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg7 : FVec F S128 .f32) (main_arg8 : FVec F S128x128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S128x128 .f32) (main_arg5 : FVec F S128 .f32) (main_arg6 : FVec F S256x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S50000x128 .f32) (main_arg1 : FVec F S800000x64 .f32) (main_arg2 : FVec F S192x128 .f32) (main_arg3 : FVec F S128 .f32) (main_arg4 : FVec F S128x128 .f32) (main_arg5 : FVec F S128 .f32) (main_arg6 : FVec F S256x128 .f32) (main_arg7 : FVec F S128 .f32) (main_arg8 : FVec F S128x128 .f32) (main_arg9 : FVec F S128 .f32) (main_arg10 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S192x128 .f32 := Host.absf main_arg2
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S50000x128 : Shape := ⟨2, ![50000, 128]⟩
abbrev S800000x64 : Shape := ⟨2, ![800000, 64]⟩
abbrev S192x128 : Shape := ⟨2, ![192, 128]⟩
abbrev S128 : Shape := ⟨1, ![128]⟩
abbrev S128x128 : Shape := ⟨2, ![128, 128]⟩
abbrev S256x128 : Shape := ⟨2, ![256, 128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S6400x128 : Shape := ⟨2, ![6400, 128]⟩
abbrev S6400x64 : Shape := ⟨2, ![6400, 64]⟩
abbrev S6400x192 : Shape := ⟨2, ![6400, 192]⟩
abbrev S1x128 : Shape := ⟨2, ![1, 128]⟩
abbrev S5000x128 : Shape := ⟨2, ![5000, 128]⟩
abbrev S5000x256 : Shape := ⟨2, ![5000, 256]⟩

abbrev nBuf : Space → Nat
  | .hbm => 31
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S800000x64, .f32⟩
  | .hbm, ⟨2, _⟩ => ⟨S192x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S2x800000, .i32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S800000x128, .bf16⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S50000x128, .f32⟩
  | .local _ .vmem, ⟨0, _⟩ => ⟨S6400x128, .f32⟩
  | .local _ .vmem, ⟨1, _⟩ => ⟨S6400x128, .f32⟩
  | .local _ .vmem, ⟨2, _⟩ => ⟨S6400x64, .f32⟩
  | .local _ .vmem, ⟨3, _⟩ => ⟨S6400x64, .f32⟩
  | .local _ .vmem, ⟨4, _⟩ => ⟨S192x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S6400x128, .bf16⟩
  | .local _ .vmem, ⟨9, _⟩ => ⟨S6400x128, .bf16⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S256x128, .f32⟩
  | .local _ .vmem, ⟨15, _⟩ => ⟨S128, .f32⟩
  | .local _ .vmem, ⟨16, _⟩ => ⟨S128x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S6400x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S6400x64_S6400x64_0_0 : ∀ a, (![0, 0] : Fin 2 → Nat) a + S6400x64.size a ≤ S6400x64.size a
  h_S6400x64 : 0 < S6400x64.numel
  concatenates_S6400x128_S6400x64_S6400x192_d1 : Shape.Concatenates [S6400x128, S6400x64] S6400x192 1
  bitsLt_bf16_f32 : FTy.bits .bf16 < FTy.bits .f32
  inb_S192x128_S192x128_0_0 : ∀ a, (![0, 0] : Fin 2 → Nat) a + S192x128.size a ≤ S192x128.size a
  h_S192x128 : 0 < S192x128.numel
  inb_S128_S128_0 : ∀ a, (![0] : Fin 1 → Nat) a + S128.size a ≤ S128.size a
  h_S128 : 0 < S128.numel
  shapeCasts_S128_S1x128 : S128.ShapeCasts S1x128
  broadcasts_S1x128_S6400x128 : S1x128.Broadcasts S6400x128
  inb_S128x128_S128x128_0_0 : ∀ a, (![0, 0] : Fin 2 → Nat) a + S128x128.size a ≤ S128x128.size a
  h_S128x128 : 0 < S128x128.numel
  packedbf16_S6400x128_S6400x128_0_0 : (Rect.unit (s := S6400x128) ![0, 0] S6400x128.size inb_S6400x128_S6400x128_0_0).PackedRows (EltTy.packing .bf16)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  dot_S6400x192_S192x128_S6400x128_1_0_0_1_n_n_wf : DotDims.WF S6400x192 S192x128 S6400x128 [1] [0] [0] [1] [] []
  dot_S6400x128_S128x128_S6400x128_1_0_0_1_n_n_wf : DotDims.WF S6400x128 S128x128 S6400x128 [1] [0] [0] [1] [] []
  scatter_S50000x128_S800000x1_S800000x128_1_0_0_1_wf : ScatterDims.WF S50000x128 S800000x1 S800000x128 [1] [0] [0] 1
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S800000x128.size a
  hwx0_0 : ∀ i : grid0.Coords, EltTy.bits .f32 = 32 ∨ (Rect.block (s := S800000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S800000x64.size a
  hwx0_1 : ∀ i : grid0.Coords, EltTy.bits .f32 = 32 ∨ (Rect.block (s := S800000x64) S6400x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192x128.size a ≤ S192x128.size a
  hwx0_2 : ∀ i : grid0.Coords, EltTy.bits .f32 = 32 ∨ (Rect.block (s := S192x128) S192x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S6400x128.size a ≤ S800000x128.size a
  hwx0_6 : ∀ i : grid0.Coords, EltTy.bits .bf16 = 32 ∨ (Rect.block (s := S800000x128) S6400x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S6400x192_S192x128_S6400x128_1_0_0_1_n_n : DotDims S6400x192 S192x128 S6400x128 where
  lhsContracting := [1]
  rhsContracting := [0]
  lhsNonContracting := [0]
  rhsNonContracting := [1]
  lhsBatch := []
  rhsBatch := []
  wf := dot_S6400x192_S192x128_S6400x128_1_0_0_1_n_n_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v10) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S192x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S6400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000x64 : Shape := ⟨2, ![800000, 64]⟩
abbrev S192x128 : Shape := ⟨2, ![192, 128]⟩
abbrev S128 : Shape := ⟨1, ![128]⟩
abbrev S128x128 : Shape := ⟨2, ![128, 128]⟩
abbrev S256x128 : Shape := ⟨2, ![256, 128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x192 : Shape := ⟨2, ![800000, 192]⟩
abbrev S1x128 : Shape := ⟨2, ![1, 128]⟩
abbrev S50000x256 : Shape := ⟨2, ![50000, 256]⟩

abbrev nBuf : Space → Nat
  | .hbm => 52
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x64, .f32⟩
  | .hbm, ⟨2, _⟩ => ⟨S192x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S2x800000, .i32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S800000x192, .f32⟩
  | .hbm, ⟨25, _⟩ => ⟨S800000x128, .f32⟩
  | .hbm, ⟨26, _⟩ => ⟨S1x128, .f32⟩
  | .hbm, ⟨27, _⟩ => ⟨S800000x128, .f32⟩
  | .hbm, ⟨28, _⟩ => ⟨S800000x128, .f32⟩
  | .hbm, ⟨29, _⟩ => ⟨S_, .f32⟩
  | .hbm, ⟨30, _⟩ => ⟨S800000x128, .f32⟩
  | .hbm, ⟨31, _⟩ => ⟨S800000x128, .f32⟩
  | .hbm, ⟨32, _⟩ => ⟨S800000x128, .f32⟩
  | .hbm, ⟨33, _⟩ => ⟨S1x128, .f32⟩
  | .hbm, ⟨34, _⟩ => ⟨S800000x128, .f32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S50000x256, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call0_cst : Ref sig .tc := ⟨.hbm, 29, rfl⟩
abbrev main_call0_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call1_cst : Ref sig .tc := ⟨.hbm, 45, rfl⟩
abbrev main_call1_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x64_S800000x192_d1 : Shape.Concatenates [S800000x128, S800000x64] S800000x192 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x192_S192x128_S800000x128_1_0_0_1_n_n_wf : DotDims.WF S800000x192 S192x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x192_S192x128_S800000x128_1_0_0_1_n_n : DotDims S800000x192 S192x128 S800000x128 where
  lhsContracting := [1]
  rhsContracting := [0]
  lhsNonContracting := [0]
  rhsNonContracting := [1]
  lhsBatch := []
  rhsBatch := []
  wf := dot_S800000x192_S192x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel program's run, with EVERY buffer's final contents named.

  The program is two pipelined regions among three stretches of host operations.  Its generated frame proof runs it
  as those segments and, at the end, reads only the argument arrays back out of the last boundary's valuation `W4`
  (the launch memory folded through the stretches and through what each region's write-backs leave).  Here the same
  run keeps all of that valuation: after every weakly fair execution each buffer that outlives a region holds
  `W4` at it.  The result buffer's contents are then read off `W4` in the modules that follow.
-/
import proofs.«159853_j72181220376644_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every buffer that is not scoped to
    a region at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run, read at the result buffer and at the eleven argument arrays: the result at what region 1's
    write-backs leave in its output array, the arguments as launched. -/
theorem run_result : θ_run defs (onTc (τ := τ) (main (F := F))) ⟨m, fun _ => 0, ρ⟩ (fun r => ∀ c : Dev nD,
      r.2.mem ((c.tc : Thread nD τ).loc main_v16) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨(h c _ (mem_uc main_v16 (by decide))).trans (W4_arr m ρ c 6),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)
    (run_all m ρ)

end Cert.KernelIdeal.Hand

end
-- ==== Proof.LibPlainDot.lean ====
/-
  A PLAIN MATRIX PRODUCT READ AT AN INDEX, generic in the three extents.

  For the dimension numbers of a plain product  [A, K] · [K, B] → [A, B]  (the left operand's axis 1 contracted
  with the right operand's axis 0, no batch axis: the library's `DotDims.plain A K B`), the sum over the
  contraction index set that the ideal instance gives a kernel's `tpu.matmul` and the host's `dot_general` is the
  textbook sum over `k : Fin K` of  l (r, k) · r (k, c)  at the output index (r, c):

  * `plain_sum`                — the re-indexing of the contraction sum through its one coordinate;
  * `matmul_zero_plain_apply`  — a kernel's matmul into the zero accumulator, read at an output index;
  * `dotGeneral_plain_apply`   — the host's dot_general, read at an output index;
  * `eq_plain`                 — any dimension-number record with these six lists IS `DotDims.plain`
                                 (the side condition is a proposition), so a printed record is replaced by it.

  Nothing here depends on a program.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {A K B : Nat}

/-- A dimension-number record for [A, K] · [K, B] → [A, B] whose six lists are the plain product's is the
    library's `DotDims.plain A K B`: the records differ at most in the proof of their side condition. -/
theorem eq_plain (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = []) : d = DotDims.plain A K B := by
  cases d
  simp only at h1 h2 h3 h4 h5 h6
  subst h1 h2 h3 h4 h5 h6
  rfl

/-- The contraction sum of a plain product at the output index `j = (r, c)`, re-indexed through the contraction's one
    coordinate: the sum over `k` of the left operand at (r, k) times the right operand at (k, c). -/
theorem plain_sum (l : (⟨2, ![A, K]⟩ : Shape).Idx → EReal) (r : (⟨2, ![K, B]⟩ : Shape).Idx → EReal)
    (j : (⟨2, ![A, B]⟩ : Shape).Idx) :
    ∑ q : (DotDims.plain A K B).contr.Idx, l ((DotDims.plain A K B).lhsIdx j q) * r ((DotDims.plain A K B).rhsIdx j q)
      = ∑ k : Fin K, l (ix2 (j 0) k) * r (ix2 k (j 1)) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx j ((contrEquiv1 (DotDims.plain A K B) K rfl rfl).symm k) = ix2 (j 0) k :=
    funext fun a => Fin.ext (by
      match a with
      | ⟨0, _⟩ => rfl
      | ⟨1, _⟩ => exact ((DotDims.plain A K B).lhsIdx_val_of_single rfl j _).trans hk)
  have er : (DotDims.plain A K B).rhsIdx j ((contrEquiv1 (DotDims.plain A K B) K rfl rfl).symm k) = ix2 k (j 1) :=
    funext fun a => Fin.ext (by
      match a with
      | ⟨0, _⟩ => exact ((DotDims.plain A K B).rhsIdx_val_of_single rfl j _).trans hk
      | ⟨1, _⟩ => rfl)
  exact congrArg₂ (fun a b => l a * r b) el er

/-- A kernel's matmul of a plain product into the zero accumulator, at the ideal values, read at an output index. -/
theorem matmul_zero_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    matmul (DotDims.plain A K B) prec l r (constant ⟨2, ![A, B]⟩ .f32 0x00000000#32) j
      = ∑ k : Fin K, l (ix2 (j 0) k) * r (ix2 k (j 1)) :=
  (Ideal.matmul_constant_zero_apply (DotDims.plain A K B) prec l r j).trans (plain_sum l r j)

/-- The host's dot_general of a plain product, at the ideal values, read at an output index. -/
theorem dotGeneral_plain_apply {φ₁ φ₂ : FTy} (prec : Option ContractPrecision)
    (l : FVec Ideal ⟨2, ![A, K]⟩ φ₁) (r : FVec Ideal ⟨2, ![K, B]⟩ φ₂) (j : (⟨2, ![A, B]⟩ : Shape).Idx) :
    Host.dotGeneral (DotDims.plain A K B) prec l r j = ∑ k : Fin K, l (ix2 (j 0) k) * r (ix2 k (j 1)) :=
  (Ideal.dotGeneral_apply (DotDims.plain A K B) prec .single l r j).trans (plain_sum l r j)

end Cert.Lib.PlainDot

end
-- ==== Proof.LibReluLayer.lean ====
/-
  ONE DENSE LAYER WITH A RECTIFIER, AS A FUNCTION OF ITS INDEX, generic in the three extents.

  For a row operand x of shape [A, K], a matrix w of shape [K, B] and a bias row b of shape [1, B], the layer
      layer x w b (r, c) = max ((sum over k of x (r, k) · w (k, c)) + b (0, c)) 0
  is what, at the ideal values (every float operation exact, rounding between formats the identity),

  * a kernel computes by a matmul of the operands (rounded to bf16) into the zero accumulator, an addition of the
    bias row broadcast to every row, and a maximum with the zero splat              (`kernel_eq`);
  * the host computes by a dot_general, an addition of the bias row broadcast in dimensions [0, 1] and a maximum
    with the rank-0 zero broadcast to the result's shape                            (`host_eq`).

  The layer at an index reads only one row of x, one column of w and one entry of b (`layer_congr`), so a block of
  rows of the layer's result is the layer of the same block of rows of x.

  Nothing here depends on a program.
-/
import Idealize.ShloMosaic.Lib.ValueIdx
import Idealize.ShloMosaic.Lib.Pipeline.Value
import Idealize.ShloMosaic.PureOps.Ideal.Laws
import proofs.«159853_j72181220376644_2_alg».proof.Proof.LibPlainDot

noncomputable section

open scoped BigOperators

namespace Cert.Lib.ReluLayer

open Idealize.ShloMosaic Idealize.ShloMosaic.ValueIdx Cert.Lib.PlainDot

variable {A A' K B : Nat}

/-- The layer at the output index (r, c): the rectified sum of the products along row r of `x` and column c of `w`,
    plus the bias at column c. -/
def layer (x : (⟨2, ![A, K]⟩ : Shape).Idx → EReal) (w : (⟨2, ![K, B]⟩ : Shape).Idx → EReal)
    (b : (⟨2, ![1, B]⟩ : Shape).Idx → EReal) : (⟨2, ![A, B]⟩ : Shape).Idx → EReal :=
  fun j => max ((∑ k : Fin K, x (ix2 (j 0) k) * w (ix2 k (j 1))) + b (ix2 0 (j 1))) 0

/-- The layer at an index depends on one row of the row operand, one column of the matrix and one entry of the bias:
    two layers (over row operands of different heights) agree at two indices where those agree. -/
theorem layer_congr (x : (⟨2, ![A, K]⟩ : Shape).Idx → EReal) (x' : (⟨2, ![A', K]⟩ : Shape).Idx → EReal)
    (w w' : (⟨2, ![K, B]⟩ : Shape).Idx → EReal) (b b' : (⟨2, ![1, B]⟩ : Shape).Idx → EReal)
    (j : (⟨2, ![A, B]⟩ : Shape).Idx) (i : (⟨2, ![A', B]⟩ : Shape).Idx)
    (hx : ∀ k, x (ix2 (j 0) k) = x' (ix2 (i 0) k)) (hw : ∀ k, w (ix2 k (j 1)) = w' (ix2 k (i 1)))
    (hb : b (ix2 0 (j 1)) = b' (ix2 0 (i 1))) : layer x w b j = layer x' w' b' i := by
  unfold layer
  rw [hb]
  refine congrArg (fun s => max (s + b' (ix2 0 (i 1))) 0) (Finset.sum_congr rfl fun k _ => ?_)
  rw [hx k, hw k]

/-- The kernel's spelling: matmul of the operands rounded to bf16 into the zero accumulator, plus the bias row
    broadcast to every row, maximum with the zero splat. -/
theorem kernel_eq (hB : B ≠ 1) (x : FVec Ideal ⟨2, ![A, K]⟩ .f32) (w : FVec Ideal ⟨2, ![K, B]⟩ .f32)
    (b : FVec Ideal ⟨2, ![1, B]⟩ .f32) (h1 : FTy.bf16.bits < FTy.f32.bits) (h2 : FTy.bf16.bits < FTy.f32.bits)
    (hbc : (⟨2, ![1, B]⟩ : Shape).Broadcasts ⟨2, ![A, B]⟩) :
    maximumf (addf (matmul (DotDims.plain A K B) none (truncf .bf16 x h1) (truncf .bf16 w h2)
          (constant ⟨2, ![A, B]⟩ .f32 0x00000000#32)) (broadcastTo ⟨2, ![A, B]⟩ b hbc))
        (broadcast ⟨2, ![A, B]⟩ (Scalar.ofBits (F := Ideal) .f32 0x00000000#32))
      = layer x w b := by
  funext j
  rw [maximumf_apply, addf_apply, matmul_zero_plain_apply, broadcast_apply]
  rw [broadcastTo_apply b hbc j (ix2 0 (j 1)) (fun a => by
    match a with
    | ⟨0, _⟩ => show (0 : Nat) = if (1 : Nat) = 1 then 0 else _; rw [if_pos rfl]
    | ⟨1, _⟩ => show (j 1).val = if B = 1 then 0 else (j 1).val; rw [if_neg hB])]
  show max _ (Ideal.ofBits .f32 0x00000000#32) = _
  rw [Ideal.ofBits_zero_f32]
  rfl

/-- The host's spelling: dot_general of the operands, plus the bias row broadcast in dimensions [0, 1], maximum with
    the rank-0 zero broadcast to the result's shape. -/
theorem host_eq (hB : B ≠ 1) (x : FVec Ideal ⟨2, ![A, K]⟩ .f32) (w : FVec Ideal ⟨2, ![K, B]⟩ .f32)
    (b : FVec Ideal ⟨2, ![1, B]⟩ .f32)
    (hb : (⟨2, ![1, B]⟩ : Shape).BroadcastsInDim ⟨2, ![A, B]⟩ (![0, 1] : Fin 2 → Fin 2))
    (h0 : (⟨0, ![]⟩ : Shape).BroadcastsInDim ⟨2, ![A, B]⟩ (![] : Fin 0 → Fin 2)) :
    maximumf (addf (Host.dotGeneral (DotDims.plain A K B) none x w) (broadcastInDim ⟨2, ![A, B]⟩ ![0, 1] hb b))
        (broadcastInDim ⟨2, ![A, B]⟩ ![] h0 (constant (F := Ideal) ⟨0, ![]⟩ .f32 0x00000000#32))
      = layer x w b := by
  funext j
  rw [maximumf_apply, addf_apply, dotGeneral_plain_apply]
  rw [broadcastInDim_apply ![0, 1] hb b j (ix2 0 (j 1)) (fun a => by
    match a with
    | ⟨0, _⟩ => show (0 : Nat) = if (1 : Nat) = 1 then 0 else _; rw [if_pos rfl]
    | ⟨1, _⟩ => show (j 1).val = if B = 1 then 0 else (j 1).val; rw [if_neg hB])]
  rw [broadcastInDim_apply ![] h0 _ j ix0 (fun a => a.elim0), constant_apply, Ideal.ofBits_zero_f32]
  rfl

end Cert.Lib.ReluLayer

end
-- ==== Proof.LibConvLayer.lean ====
/-
  A GRAPH-CONVOLUTION LAYER'S DENSE STAGE, AS A FUNCTION OF ITS INDEX, generic in the three extents.

  For two row operands a (the aggregated neighbours) and x (the nodes themselves) of shape [A, K], two matrices w and
  w' of shape [K, B] and a bias row b of shape [1, B], the stage
      conv a x w w' b (r, c) = max (((sum over k of a (r, k) · w (k, c)) + (sum over k of x (r, k) · w' (k, c))) + b (0, c)) 0
  is what, at the ideal values (every float operation exact, rounding between formats the identity),

  * a kernel computes by two matmuls of the operands (rounded to bf16) into zero accumulators, their sum, an addition
    of the bias row broadcast to every row, and a maximum with the zero splat             (`kernel_eq`);
  * the host computes by a dot_general, an addition of the bias row broadcast in dimensions [0, 1], an addition of
    the second dot_general, and a maximum with the rank-0 zero broadcast to the result's shape (`host_eq`):
    the two differ in the order of the three summands, and addition on the extended reals is commutative and
    associative, infinities included.

  The stage at an index reads only one row of a and of x, one column of w and of w' and one entry of b
  (`conv_congr`), so a block of rows of the result is the stage of the same block of rows of a and x.

  The last stage of a perceptron head, without a rectifier,
      affine x w b (r, c) = (sum over k of x (r, k) · w (k, c)) + b (0, c),
  has the same two spellings (`affine_kernel_eq`, `affine_host_eq`), for any width B, one included.

  Nothing here depends on a program.
-/
import Idealize.ShloMosaic.Lib.ValueIdx
import Idealize.ShloMosaic.Lib.Pipeline.Value
import Idealize.ShloMosaic.PureOps.Ideal.Laws
import proofs.«159853_j72181220376644_2_alg».proof.Proof.LibPlainDot

noncomputable section

open scoped BigOperators

namespace Cert.Lib.ConvLayer

open Idealize.ShloMosaic Idealize.ShloMosaic.ValueIdx Cert.Lib.PlainDot

variable {A A' K B : Nat}

/-- The stage at the output index (r, c). -/
def conv (a x : (⟨2, ![A, K]⟩ : Shape).Idx → EReal) (w w' : (⟨2, ![K, B]⟩ : Shape).Idx → EReal)
    (b : (⟨2, ![1, B]⟩ : Shape).Idx → EReal) : (⟨2, ![A, B]⟩ : Shape).Idx → EReal :=
  fun j => max (((∑ k : Fin K, a (ix2 (j 0) k) * w (ix2 k (j 1))) + (∑ k : Fin K, x (ix2 (j 0) k) * w' (ix2 k (j 1))))
    + b (ix2 0 (j 1))) 0

/-- The stage at an index depends on one row of each row operand, one column of each matrix and one entry of the
    bias: two stages (over row operands of different heights) agree at two indices where those agree. -/
theorem conv_congr (a x : (⟨2, ![A, K]⟩ : Shape).Idx → EReal) (a' x' : (⟨2, ![A', K]⟩ : Shape).Idx → EReal)
    (w w' v v' : (⟨2, ![K, B]⟩ : Shape).Idx → EReal) (b b' : (⟨2, ![1, B]⟩ : Shape).Idx → EReal)
    (j : (⟨2, ![A, B]⟩ : Shape).Idx) (i : (⟨2, ![A', B]⟩ : Shape).Idx)
    (ha : ∀ k, a (ix2 (j 0) k) = a' (ix2 (i 0) k)) (hx : ∀ k, x (ix2 (j 0) k) = x' (ix2 (i 0) k))
    (hw : ∀ k, w (ix2 k (j 1)) = v (ix2 k (i 1))) (hw' : ∀ k, w' (ix2 k (j 1)) = v' (ix2 k (i 1)))
    (hb : b (ix2 0 (j 1)) = b' (ix2 0 (i 1))) : conv a x w w' b j = conv a' x' v v' b' i := by
  unfold conv
  rw [hb, Finset.sum_congr rfl fun k _ => congrArg₂ (· * ·) (ha k) (hw k),
    Finset.sum_congr rfl fun k _ => congrArg₂ (· * ·) (hx k) (hw' k)]

/-- A bias row [1, B] broadcast to every row of [A, B], read at an index: the entry of its column (any B, one
    included: then the column is 0 on both sides). -/
theorem bias_row_apply (b : FVec Ideal ⟨2, ![1, B]⟩ .f32) (hbc : (⟨2, ![1, B]⟩ : Shape).Broadcasts ⟨2, ![A, B]⟩)
    (j : (⟨2, ![A, B]⟩ : Shape).Idx) : broadcastTo ⟨2, ![A, B]⟩ b hbc j = b (ix2 0 (j 1)) :=
  broadcastTo_apply b hbc j (ix2 0 (j 1)) (fun a => by
    match a with
    | ⟨0, _⟩ => show (0 : Nat) = if (1 : Nat) = 1 then 0 else _; rw [if_pos rfl]
    | ⟨1, _⟩ =>
      show (j 1).val = if B = 1 then 0 else (j 1).val
      split
      · rename_i h; have hlt : (j 1).val < B := (j 1).isLt; omega
      · rfl)

/-- The same for the host's broadcast in dimensions [0, 1]. -/
theorem bias_row_inDim_apply (b : FVec Ideal ⟨2, ![1, B]⟩ .f32)
    (hb : (⟨2, ![1, B]⟩ : Shape).BroadcastsInDim ⟨2, ![A, B]⟩ (![0, 1] : Fin 2 → Fin 2))
    (j : (⟨2, ![A, B]⟩ : Shape).Idx) : broadcastInDim ⟨2, ![A, B]⟩ ![0, 1] hb b j = b (ix2 0 (j 1)) :=
  broadcastInDim_apply ![0, 1] hb b j (ix2 0 (j 1)) (fun a => by
    match a with
    | ⟨0, _⟩ => show (0 : Nat) = if (1 : Nat) = 1 then 0 else _; rw [if_pos rfl]
    | ⟨1, _⟩ =>
      show (j 1).val = if B = 1 then 0 else (j 1).val
      split
      · rename_i h; have hlt : (j 1).val < B := (j 1).isLt; omega
      · rfl)

/-- The kernel's spelling of the stage. -/
theorem kernel_eq (a x : FVec Ideal ⟨2, ![A, K]⟩ .f32) (w w' : FVec Ideal ⟨2, ![K, B]⟩ .f32)
    (b : FVec Ideal ⟨2, ![1, B]⟩ .f32) (h1 h2 h3 h4 : FTy.bf16.bits < FTy.f32.bits)
    (hbc : (⟨2, ![1, B]⟩ : Shape).Broadcasts ⟨2, ![A, B]⟩) :
    maximumf (addf (addf
          (matmul (DotDims.plain A K B) none (truncf .bf16 a h1) (truncf .bf16 w h2)
            (constant ⟨2, ![A, B]⟩ .f32 0x00000000#32))
          (matmul (DotDims.plain A K B) none (truncf .bf16 x h3) (truncf .bf16 w' h4)
            (constant ⟨2, ![A, B]⟩ .f32 0x00000000#32)))
          (broadcastTo ⟨2, ![A, B]⟩ b hbc))
        (broadcast ⟨2, ![A, B]⟩ (Scalar.ofBits (F := Ideal) .f32 0x00000000#32))
      = conv a x w w' b := by
  funext j
  rw [maximumf_apply, addf_apply, addf_apply, matmul_zero_plain_apply, matmul_zero_plain_apply, broadcast_apply,
    bias_row_apply]
  show max _ (Ideal.ofBits .f32 0x00000000#32) = _
  rw [Ideal.ofBits_zero_f32]
  rfl

/-- The host's spelling of the stage: the bias is added before the second product. -/
theorem host_eq (a x : FVec Ideal ⟨2, ![A, K]⟩ .f32) (w w' : FVec Ideal ⟨2, ![K, B]⟩ .f32)
    (b : FVec Ideal ⟨2, ![1, B]⟩ .f32)
    (hb : (⟨2, ![1, B]⟩ : Shape).BroadcastsInDim ⟨2, ![A, B]⟩ (![0, 1] : Fin 2 → Fin 2))
    (h0 : (⟨0, ![]⟩ : Shape).BroadcastsInDim ⟨2, ![A, B]⟩ (![] : Fin 0 → Fin 2)) :
    maximumf (addf (addf (Host.dotGeneral (DotDims.plain A K B) none a w) (broadcastInDim ⟨2, ![A, B]⟩ ![0, 1] hb b))
          (Host.dotGeneral (DotDims.plain A K B) none x w'))
        (broadcastInDim ⟨2, ![A, B]⟩ ![] h0 (constant (F := Ideal) ⟨0, ![]⟩ .f32 0x00000000#32))
      = conv a x w w' b := by
  funext j
  rw [maximumf_apply, addf_apply, addf_apply, dotGeneral_plain_apply, dotGeneral_plain_apply, bias_row_inDim_apply]
  rw [broadcastInDim_apply ![] h0 _ j ix0 (fun a => a.elim0), constant_apply, Ideal.ofBits_zero_f32]
  unfold conv
  exact congrArg (fun s : EReal => max s 0) (add_right_comm _ _ _)

/-- The last stage of the head, without a rectifier, at the output index (r, c). -/
def affine (x : (⟨2, ![A, K]⟩ : Shape).Idx → EReal) (w : (⟨2, ![K, B]⟩ : Shape).Idx → EReal)
    (b : (⟨2, ![1, B]⟩ : Shape).Idx → EReal) : (⟨2, ![A, B]⟩ : Shape).Idx → EReal :=
  fun j => (∑ k : Fin K, x (ix2 (j 0) k) * w (ix2 k (j 1))) + b (ix2 0 (j 1))

/-- The kernel's spelling of the last stage. -/
theorem affine_kernel_eq (x : FVec Ideal ⟨2, ![A, K]⟩ .f32) (w : FVec Ideal ⟨2, ![K, B]⟩ .f32)
    (b : FVec Ideal ⟨2, ![1, B]⟩ .f32) (h1 h2 : FTy.bf16.bits < FTy.f32.bits)
    (hbc : (⟨2, ![1, B]⟩ : Shape).Broadcasts ⟨2, ![A, B]⟩) :
    addf (matmul (DotDims.plain A K B) none (truncf .bf16 x h1) (truncf .bf16 w h2)
          (constant ⟨2, ![A, B]⟩ .f32 0x00000000#32)) (broadcastTo ⟨2, ![A, B]⟩ b hbc)
      = affine x w b := by
  funext j
  rw [addf_apply, matmul_zero_plain_apply, bias_row_apply]
  rfl

/-- The host's spelling of the last stage. -/
theorem affine_host_eq (x : FVec Ideal ⟨2, ![A, K]⟩ .f32) (w : FVec Ideal ⟨2, ![K, B]⟩ .f32)
    (b : FVec Ideal ⟨2, ![1, B]⟩ .f32)
    (hb : (⟨2, ![1, B]⟩ : Shape).BroadcastsInDim ⟨2, ![A, B]⟩ (![0, 1] : Fin 2 → Fin 2)) :
    addf (Host.dotGeneral (DotDims.plain A K B) none x w) (broadcastInDim ⟨2, ![A, B]⟩ ![0, 1] hb b)
      = affine x w b := by
  funext j
  rw [addf_apply, dotGeneral_plain_apply, bias_row_inDim_apply]
  rfl

end Cert.Lib.ConvLayer

end
-- ==== Proof.LibHead.lean ====
/-
  A PERCEPTRON HEAD OVER STACKED WEIGHTS, AS A FUNCTION OF ITS INDEX, generic in the extents.

  * `mat ws l` — matrix l of a stack of matrices [L, C, H]; `row bs l` — row l of a stack of bias rows [L, 1, H];
    `stackRows b` — a table [L, H] of biases as that stack of rows.
  * `head2 g w0 b0 ws bs wo bo` — a first rectified dense layer [G, C] → [G, H], two more rectified layers [G, H] → [G, H]
    whose weights are the two matrices of a stack and whose biases the two rows of a stack, and a last layer
    [G, H] → [G, 1] without a rectifier: the layers are `Cert.Lib.ReluLayer.layer` and `Cert.Lib.ConvLayer.affine`.
  * `rowCast_eq_inDim` — a vector [B] recast as the row [1, B] is the vector broadcast in dimension 1: the two ways
    a program makes a bias row of a bias vector.

  Nothing here depends on a program.
-/
import Idealize.ShloMosaic.Lib.ValueIdx
import Idealize.ShloMosaic.Lib.Pipeline.Value
import Idealize.ShloMosaic.PureOps.Ideal.Laws
import proofs.«159853_j72181220376644_2_alg».proof.Proof.LibReluLayer
import proofs.«159853_j72181220376644_2_alg».proof.Proof.LibConvLayer

noncomputable section

open scoped BigOperators

namespace Cert.Lib.Head

open Idealize.ShloMosaic Idealize.ShloMosaic.ValueIdx Cert.Lib.ReluLayer Cert.Lib.ConvLayer

variable {G C H L B : Nat} {α : Type}

/-- Matrix `l` of a stack of `L` matrices. -/
def mat (ws : (⟨3, ![L, C, H]⟩ : Shape).Idx → α) (l : Fin L) : (⟨2, ![C, H]⟩ : Shape).Idx → α :=
  fun j => ws (ix3 l (j 0) (j 1))

/-- Row `l` of a stack of `L` bias rows. -/
def row (bs : (⟨3, ![L, 1, H]⟩ : Shape).Idx → α) (l : Fin L) : (⟨2, ![1, H]⟩ : Shape).Idx → α :=
  fun j => bs (ix3 l 0 (j 1))

/-- A table [L, H] of biases as a stack of `L` rows [1, H]. -/
def stackRows (b : (⟨2, ![L, H]⟩ : Shape).Idx → α) : (⟨3, ![L, 1, H]⟩ : Shape).Idx → α :=
  fun j => b (ix2 (j 0) (j 2))

/-- The head: three rectified dense layers and a last one without a rectifier. -/
def head2 (g : (⟨2, ![G, C]⟩ : Shape).Idx → EReal) (w0 : (⟨2, ![C, H]⟩ : Shape).Idx → EReal)
    (b0 : (⟨2, ![1, H]⟩ : Shape).Idx → EReal) (ws : (⟨3, ![2, H, H]⟩ : Shape).Idx → EReal)
    (bs : (⟨3, ![2, 1, H]⟩ : Shape).Idx → EReal) (wo : (⟨2, ![H, 1]⟩ : Shape).Idx → EReal)
    (bo : (⟨2, ![1, 1]⟩ : Shape).Idx → EReal) : (⟨2, ![G, 1]⟩ : Shape).Idx → EReal :=
  affine (layer (layer (layer g w0 b0) (mat ws 0) (row bs 0)) (mat ws 1) (row bs 1)) wo bo

/-- A vector [B] recast as the row [1, B] is the vector broadcast in dimension 1. -/
theorem rowCast_eq_inDim (v : (⟨1, ![B]⟩ : Shape).Idx → α) (h : (⟨1, ![B]⟩ : Shape).ShapeCasts ⟨2, ![1, B]⟩)
    (hb : (⟨1, ![B]⟩ : Shape).BroadcastsInDim ⟨2, ![1, B]⟩ (![1] : Fin 1 → Fin 2)) :
    shapeCast ⟨2, ![1, B]⟩ v h = broadcastInDim ⟨2, ![1, B]⟩ ![1] hb v := by
  funext j
  have e1 : shapeCast ⟨2, ![1, B]⟩ v h j = v (ix1 (j 1)) :=
    shapeCast_apply v h j (ix1 (j 1)) (by
      have h0 : (j 0).val = 0 := by have hlt : (j 0).val < 1 := (j 0).isLt; omega
      rw [Shape.rowMajor_val_one, Shape.rowMajor_val_two]
      show (j 1).val = (j 0).val * B + (j 1).val
      rw [h0]; omega)
  have e2 : broadcastInDim ⟨2, ![1, B]⟩ ![1] hb v j = v (ix1 (j 1)) :=
    broadcastInDim_apply ![1] hb v j (ix1 (j 1)) (fun a => by
      match a with
      | ⟨0, _⟩ =>
        show (j 1).val = if B = 1 then 0 else (j 1).val
        split
        · rename_i hB; have hlt : (j 1).val < B := (j 1).isLt; omega
        · rfl)
  rw [e1, e2]

end Cert.Lib.Head

end
-- ==== Proof.LibCatMlp.lean ====
/-
  A TWO-LAYER PERCEPTRON ON TWO FEATURE BLOCKS SIDE BY SIDE, AS A FUNCTION OF ITS INDEX, generic in the extents.

  For two row operands a of shape [A, K1] and b of shape [A, K2], write (a | b) for the array of shape [A, K],
  K = K1 + K2, whose row r is row r of a followed by row r of b (`sideBySide`: what a concatenation along axis 1
  of the two is, `concatenate_eq_sideBySide`).  With a matrix w1 of shape [K, H], a bias row r1 of shape [1, H], a
  matrix w2 of shape [H, B] and a bias row r2 of shape [1, B], the perceptron
      mlp a b w1 r1 w2 r2 (r, c) = (sum over h of max ((sum over k of (a | b) (r, k) · w1 (k, h)) + r1 (0, h)) 0 · w2 (h, c)) + r2 (0, c)
  is a rectified dense layer followed by an affine one.  At the ideal values (every float operation exact, rounding
  between formats the identity) it is what

  * a kernel computes by concatenating its two blocks, two matmuls of operands rounded to bf16 into zero
    accumulators, the bias vectors recast as rows and broadcast to every row, and a maximum with the zero splat
    between them                                                                         (`mlp_kernel_eq`);
  * the host computes by a concatenate, two dot_generals, the bias vectors broadcast in dimension 1 and then in
    dimensions [0, 1], and a maximum with the rank-0 zero broadcast to the result's shape  (`mlp_host_eq`).

  The perceptron at (r, c) reads only row r of a and of b (`mlp_congr`): a block of rows of its result is the
  perceptron of the same block of rows of a and b, which is what lets a kernel tile the rows.

  Nothing here depends on a program.
-/
import Idealize.ShloMosaic.Lib.ValueIdx
import Idealize.ShloMosaic.Lib.Pipeline.Value
import Idealize.ShloMosaic.PureOps.Ideal.Laws
import proofs.«159853_j72181220376644_2_alg».proof.Proof.LibPlainDot
import proofs.«159853_j72181220376644_2_alg».proof.Proof.LibReluLayer
import proofs.«159853_j72181220376644_2_alg».proof.Proof.LibConvLayer
import proofs.«159853_j72181220376644_2_alg».proof.Proof.LibHead

noncomputable section

open scoped BigOperators

namespace Cert.Lib.CatMlp

open Idealize.ShloMosaic Idealize.ShloMosaic.ValueIdx Cert.Lib.PlainDot Cert.Lib.ReluLayer Cert.Lib.ConvLayer

variable {A A' K1 K2 K H B : Nat} {α : Type}

/-- The array (a | b): row r is row r of `a` followed by row r of `b`. -/
def sideBySide (hK : K1 + K2 = K) (a : (⟨2, ![A, K1]⟩ : Shape).Idx → α) (b : (⟨2, ![A, K2]⟩ : Shape).Idx → α) :
    (⟨2, ![A, K]⟩ : Shape).Idx → α :=
  fun j => if h : (j 1).val < K1 then a (ix2 (j 0) ⟨(j 1).val, h⟩)
    else b (ix2 (j 0) ⟨(j 1).val - K1, by have hlt : (j 1).val < K := (j 1).isLt; omega⟩)

/-- (a | b) at (r, k) reads row r of `a` and of `b` only: two such arrays (of different heights) agree at two
    indices in the same column whose rows agree. -/
theorem sideBySide_congr (hK : K1 + K2 = K) (a : (⟨2, ![A, K1]⟩ : Shape).Idx → α) (b : (⟨2, ![A, K2]⟩ : Shape).Idx → α)
    (a' : (⟨2, ![A', K1]⟩ : Shape).Idx → α) (b' : (⟨2, ![A', K2]⟩ : Shape).Idx → α)
    (j : (⟨2, ![A, K]⟩ : Shape).Idx) (i : (⟨2, ![A', K]⟩ : Shape).Idx) (hc : (j 1).val = (i 1).val)
    (ha : ∀ k, a (ix2 (j 0) k) = a' (ix2 (i 0) k)) (hb : ∀ k, b (ix2 (j 0) k) = b' (ix2 (i 0) k)) :
    sideBySide hK a b j = sideBySide hK a' b' i := by
  unfold sideBySide
  by_cases h : (j 1).val < K1
  · have h' : (i 1).val < K1 := hc ▸ h
    rw [dif_pos h, dif_pos h', ha]
    exact congrArg (fun q => a' (ix2 (i 0) q)) (Fin.ext hc)
  · have h' : ¬ (i 1).val < K1 := hc ▸ h
    rw [dif_neg h, dif_neg h', hb]
    exact congrArg (fun q => b' (ix2 (i 0) q)) (Fin.ext (by show (j 1).val - K1 = (i 1).val - K1; rw [hc]))

/-- A concatenation of two arrays along axis 1 is the two side by side. -/
theorem concatenate_eq_sideBySide (hK : K1 + K2 = K) (a : (⟨2, ![A, K1]⟩ : Shape).Idx → α)
    (b : (⟨2, ![A, K2]⟩ : Shape).Idx → α)
    (h : Shape.Concatenates [(⟨2, ![A, K1]⟩ : Shape), ⟨2, ![A, K2]⟩] ⟨2, ![A, K]⟩ 1) :
    concatenate ⟨2, ![A, K]⟩ 1 [⟨⟨2, ![A, K1]⟩, a⟩, ⟨⟨2, ![A, K2]⟩, b⟩] h = sideBySide hK a b := by
  funext j
  unfold sideBySide
  by_cases hlt : (j 1).val < K1
  · rw [dif_pos hlt]
    exact concatenate_pair_apply_left (1 : Fin 2) a b h j rfl (ix2 (j 0) ⟨(j 1).val, hlt⟩) (fun d => by
      match d with
      | ⟨0, _⟩ => rfl
      | ⟨1, _⟩ => rfl)
  · rw [dif_neg hlt]
    exact concatenate_pair_apply_right (1 : Fin 2) a b h j rfl rfl
      (ix2 (j 0) ⟨(j 1).val - K1, by have hlt' : (j 1).val < K := (j 1).isLt; omega⟩) (fun d hd => by
      match d with
      | ⟨0, _⟩ => rfl
      | ⟨1, _⟩ => exact absurd rfl hd) (by show (j 1).val - K1 + K1 = (j 1).val; omega)

/-- The perceptron: a rectified dense layer on (a | b), then an affine layer. -/
def mlp (hK : K1 + K2 = K) (a : (⟨2, ![A, K1]⟩ : Shape).Idx → EReal) (b : (⟨2, ![A, K2]⟩ : Shape).Idx → EReal)
    (w1 : (⟨2, ![K, H]⟩ : Shape).Idx → EReal) (r1 : (⟨2, ![1, H]⟩ : Shape).Idx → EReal)
    (w2 : (⟨2, ![H, B]⟩ : Shape).Idx → EReal) (r2 : (⟨2, ![1, B]⟩ : Shape).Idx → EReal) :
    (⟨2, ![A, B]⟩ : Shape).Idx → EReal :=
  affine (layer (sideBySide hK a b) w1 r1) w2 r2

/-- The perceptron at (r, c) reads row r of `a` and of `b` only: over row operands of different heights it takes
    the same value at two indices in the same column whose rows agree. -/
theorem mlp_congr (hK : K1 + K2 = K) (a : (⟨2, ![A, K1]⟩ : Shape).Idx → EReal) (b : (⟨2, ![A, K2]⟩ : Shape).Idx → EReal)
    (a' : (⟨2, ![A', K1]⟩ : Shape).Idx → EReal) (b' : (⟨2, ![A', K2]⟩ : Shape).Idx → EReal)
    (w1 : (⟨2, ![K, H]⟩ : Shape).Idx → EReal) (r1 : (⟨2, ![1, H]⟩ : Shape).Idx → EReal)
    (w2 : (⟨2, ![H, B]⟩ : Shape).Idx → EReal) (r2 : (⟨2, ![1, B]⟩ : Shape).Idx → EReal)
    (j : (⟨2, ![A, B]⟩ : Shape).Idx) (i : (⟨2, ![A', B]⟩ : Shape).Idx) (hc : (j 1).val = (i 1).val)
    (ha : ∀ k, a (ix2 (j 0) k) = a' (ix2 (i 0) k)) (hb : ∀ k, b (ix2 (j 0) k) = b' (ix2 (i 0) k)) :
    mlp hK a b w1 r1 w2 r2 j = mlp hK a' b' w1 r1 w2 r2 i := by
  have hc' : (j 1 : Fin B) = (i 1 : Fin B) := Fin.ext hc
  unfold mlp affine
  refine congrArg₂ (· + ·) (Finset.sum_congr rfl fun k _ => congrArg₂ (· * ·) ?_ ?_) ?_
  · exact layer_congr _ _ w1 w1 r1 r1 (ix2 (j 0) k) (ix2 (i 0) k)
      (fun k' => sideBySide_congr hK a b a' b' (ix2 (j 0) k') (ix2 (i 0) k') rfl ha hb) (fun _ => rfl) rfl
  · exact congrArg (fun q : Fin B => w2 (ix2 k q)) hc'
  · exact congrArg (fun q : Fin B => r2 (ix2 0 q)) hc'

/-- The kernel's spelling of the perceptron. -/
theorem mlp_kernel_eq (hK : K1 + K2 = K) (hH : H ≠ 1)
    (a : FVec Ideal ⟨2, ![A, K1]⟩ .f32) (b : FVec Ideal ⟨2, ![A, K2]⟩ .f32)
    (w1 : FVec Ideal ⟨2, ![K, H]⟩ .f32) (v1 : FVec Ideal ⟨1, ![H]⟩ .f32)
    (w2 : FVec Ideal ⟨2, ![H, B]⟩ .f32) (v2 : FVec Ideal ⟨1, ![B]⟩ .f32)
    (hcat : Shape.Concatenates [(⟨2, ![A, K1]⟩ : Shape), ⟨2, ![A, K2]⟩] ⟨2, ![A, K]⟩ 1)
    (h1 h2 h3 h4 : FTy.bf16.bits < FTy.f32.bits)
    (hs1 : (⟨1, ![H]⟩ : Shape).ShapeCasts ⟨2, ![1, H]⟩) (hs2 : (⟨1, ![B]⟩ : Shape).ShapeCasts ⟨2, ![1, B]⟩)
    (hb1 : (⟨2, ![1, H]⟩ : Shape).Broadcasts ⟨2, ![A, H]⟩) (hb2 : (⟨2, ![1, B]⟩ : Shape).Broadcasts ⟨2, ![A, B]⟩) :
    addf (matmul (DotDims.plain A H B) none
          (truncf .bf16 (maximumf (addf (matmul (DotDims.plain A K H) none
                (truncf .bf16 (concatenate ⟨2, ![A, K]⟩ 1 [⟨⟨2, ![A, K1]⟩, a⟩, ⟨⟨2, ![A, K2]⟩, b⟩] hcat) h1)
                (truncf .bf16 w1 h2) (constant ⟨2, ![A, H]⟩ .f32 0x00000000#32))
              (broadcastTo ⟨2, ![A, H]⟩ (shapeCast ⟨2, ![1, H]⟩ v1 hs1) hb1))
            (broadcast ⟨2, ![A, H]⟩ (Scalar.ofBits (F := Ideal) .f32 0x00000000#32))) h3)
          (truncf .bf16 w2 h4) (constant ⟨2, ![A, B]⟩ .f32 0x00000000#32))
        (broadcastTo ⟨2, ![A, B]⟩ (shapeCast ⟨2, ![1, B]⟩ v2 hs2) hb2)
      = mlp hK a b w1 (shapeCast ⟨2, ![1, H]⟩ v1 hs1) w2 (shapeCast ⟨2, ![1, B]⟩ v2 hs2) := by
  rw [Cert.Lib.ReluLayer.kernel_eq hH, affine_kernel_eq, concatenate_eq_sideBySide hK]
  rfl

/-- The host's spelling of the perceptron. -/
theorem mlp_host_eq (hK : K1 + K2 = K) (hH : H ≠ 1)
    (a : FVec Ideal ⟨2, ![A, K1]⟩ .f32) (b : FVec Ideal ⟨2, ![A, K2]⟩ .f32)
    (w1 : FVec Ideal ⟨2, ![K, H]⟩ .f32) (v1 : FVec Ideal ⟨1, ![H]⟩ .f32)
    (w2 : FVec Ideal ⟨2, ![H, B]⟩ .f32) (v2 : FVec Ideal ⟨1, ![B]⟩ .f32)
    (hcat : Shape.Concatenates [(⟨2, ![A, K1]⟩ : Shape), ⟨2, ![A, K2]⟩] ⟨2, ![A, K]⟩ 1)
    (hr1 : (⟨1, ![H]⟩ : Shape).BroadcastsInDim ⟨2, ![1, H]⟩ (![1] : Fin 1 → Fin 2))
    (hr2 : (⟨1, ![B]⟩ : Shape).BroadcastsInDim ⟨2, ![1, B]⟩ (![1] : Fin 1 → Fin 2))
    (hb1 : (⟨2, ![1, H]⟩ : Shape).BroadcastsInDim ⟨2, ![A, H]⟩ (![0, 1] : Fin 2 → Fin 2))
    (hb2 : (⟨2, ![1, B]⟩ : Shape).BroadcastsInDim ⟨2, ![A, B]⟩ (![0, 1] : Fin 2 → Fin 2))
    (h0 : (⟨0, ![]⟩ : Shape).BroadcastsInDim ⟨2, ![A, H]⟩ (![] : Fin 0 → Fin 2)) :
    addf (Host.dotGeneral (DotDims.plain A H B) none
          (maximumf (addf (Host.dotGeneral (DotDims.plain A K H) none
                (concatenate ⟨2, ![A, K]⟩ 1 [⟨⟨2, ![A, K1]⟩, a⟩, ⟨⟨2, ![A, K2]⟩, b⟩] hcat) w1)
              (broadcastInDim ⟨2, ![A, H]⟩ ![0, 1] hb1 (broadcastInDim ⟨2, ![1, H]⟩ ![1] hr1 v1)))
            (broadcastInDim ⟨2, ![A, H]⟩ ![] h0 (constant (F := Ideal) ⟨0, ![]⟩ .f32 0x00000000#32))) w2)
        (broadcastInDim ⟨2, ![A, B]⟩ ![0, 1] hb2 (broadcastInDim ⟨2, ![1, B]⟩ ![1] hr2 v2))
      = mlp hK a b w1 (broadcastInDim ⟨2, ![1, H]⟩ ![1] hr1 v1) w2 (broadcastInDim ⟨2, ![1, B]⟩ ![1] hr2 v2) := by
  rw [Cert.Lib.ReluLayer.host_eq hH, affine_host_eq, concatenate_eq_sideBySide hK]
  rfl

end Cert.Lib.CatMlp

end
-- ==== Proof.Payloads.lean ====
/-
  What each kernel body stores, as a function of what it loads, at the ideal values.

  The message body loads a block of 6400 gathered node rows (128 features), the matching 6400 rows of edge
  encodings (64 features), and the whole weights [192, 128], [128], [128, 128], [128]; it stores, rounded to bf16,
      (max (((x | p) · W1) + b1) 0) · W2 + b2
  of those rows.  The update body does the same over 5000 rows of node features and of aggregated messages (128
  features each) with weights [256, 128], [128], [128, 128], [128].  With rounding the identity and every
  operation exact, both are the two-layer perceptron `Cert.Lib.CatMlp.mlp` of the loaded blocks, the bias vectors
  recast as rows.
-/
import proofs.«159853_j72181220376644_2_alg».proof.Proof.Gen.KernelIdeal.Skeleton
import proofs.«159853_j72181220376644_2_alg».proof.Proof.LibCatMlp

noncomputable section

namespace Cert.KernelIdeal.Hand

open Cert.KernelIdeal Cert.KernelIdeal.Gen
open Idealize.ShloMosaic Idealize.ShloMosaic.ValueIdx Cert.Lib.PlainDot Cert.Lib.CatMlp

/-- The four products' dimension numbers are those of a plain product [A, K] · [K, B]. -/
theorem dot_msg1_plain : dot_S6400x192_S192x128_S6400x128_1_0_0_1_n_n = DotDims.plain 6400 192 128 :=
  eq_plain _ rfl rfl rfl rfl rfl rfl
theorem dot_msg2_plain : dot_S6400x128_S128x128_S6400x128_1_0_0_1_n_n = DotDims.plain 6400 128 128 :=
  eq_plain _ rfl rfl rfl rfl rfl rfl
theorem dot_upd1_plain : dot_S5000x256_S256x128_S5000x128_1_0_0_1_n_n = DotDims.plain 5000 256 128 :=
  eq_plain _ rfl rfl rfl rfl rfl rfl
theorem dot_upd2_plain : dot_S5000x128_S128x128_S5000x128_1_0_0_1_n_n = DotDims.plain 5000 128 128 :=
  eq_plain _ rfl rfl rfl rfl rfl rfl

/-- The message body's stored block: the perceptron of the loaded rows and weights. -/
theorem msg_payload (x0 : Vec Ideal S6400x128 .f32) (x1 : Vec Ideal S6400x64 .f32) (x2 : Vec Ideal S192x128 .f32)
    (x3 : Vec Ideal S128 .f32) (x4 : Vec Ideal S128x128 .f32) (x5 : Vec Ideal S128 .f32) :
    k0_pay1 (F := Ideal) x0 x1 x2 x3 x4 x5
      = mlp (K1 := 128) (K2 := 64) (K := 192) rfl x0 x1 x2 (shapeCast S1x128 x3 shapeCasts_S128_S1x128) x4
          (shapeCast S1x128 x5 shapeCasts_S128_S1x128) := by
  unfold k0_pay1
  dsimp only
  rw [dot_msg1_plain, dot_msg2_plain, shapeCast_self]
  funext j
  rw [truncf_apply]
  exact congrFun (mlp_kernel_eq (K1 := 128) (K2 := 64) (K := 192) rfl (by decide) x0 x1 x2 x3 x4 x5 _ _ _ _ _ _ _ _ _) j

/-- The update body's stored block: the perceptron of the loaded rows and weights. -/
theorem upd_payload (x0 : Vec Ideal S5000x128 .f32) (x1 : Vec Ideal S5000x128 .f32) (x2 : Vec Ideal S256x128 .f32)
    (x3 : Vec Ideal S128 .f32) (x4 : Vec Ideal S128x128 .f32) (x5 : Vec Ideal S128 .f32) :
    k1_pay1 (F := Ideal) x0 x1 x2 x3 x4 x5
      = mlp (K1 := 128) (K2 := 128) (K := 256) rfl x0 x1 x2 (shapeCast S1x128 x3 shapeCasts_S128_S1x128) x4
          (shapeCast S1x128 x5 shapeCasts_S128_S1x128) := by
  unfold k1_pay1
  dsimp only
  rw [dot_upd1_plain, dot_upd2_plain, shapeCast_self]
  exact mlp_kernel_eq (K1 := 128) (K2 := 128) (K := 256) rfl (by decide) x0 x1 x2 x3 x4 x5 _ _ _ _ _ _ _ _ _

end Cert.KernelIdeal.Hand

end
-- ==== Proof.MessageRegion.lean ====
/-
  The message region: what its output array holds after the 125 grid points.

  Point t of the grid loads rows 6400·t … 6400·t + 6399 of the gathered node features and of the edge encodings,
  and the whole weights; it writes back rows 6400·t … 6400·t + 6399 of the messages.  The perceptron's row r reads
  only row r of its two row operands, so what point t writes back is rows 6400·t … of ONE array: the perceptron of
  the whole gathered features and the whole edge encodings (`msgArr`).  The 125 blocks tile the 800000 rows, so
  that array is what the output holds at the end (`msg_final`).  All of it at whatever the region finds in its
  arrays when it is entered (`V`).
-/
import proofs.«159853_j72181220376644_2_alg».proof.Proof.Gen.KernelIdeal.Frame
import proofs.«159853_j72181220376644_2_alg».proof.Proof.Payloads
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.CatMlp

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The messages as one array: the perceptron of the gathered features and the edge encodings as the region finds them. -/
def msgArr (c : Dev nD) : S800000x128.Idx → EReal :=
  mlp (K1 := 128) (K2 := 64) (K := 192) rfl (V c main_v10) (V c main_arg1) (V c main_arg2)
    (shapeCast S1x128 (V c main_arg3) shapeCasts_S128_S1x128) (V c main_arg4)
    (shapeCast S1x128 (V c main_arg5) shapeCasts_S128_S1x128)

/-- The block indices of the seven windows at grid point t: the row windows move with t, the weights stay. -/
theorem msg_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- The weight windows' blocks are the whole arrays. -/
theorem msg_w1_block (c : Dev nD) (t : Fin cfg0.N) : (iblk0 V c 2 t : S192x128.Idx → EReal) = V c main_arg2 := by
  obtain ⟨-, -, -, -, e0, e1, -⟩ := msg_index t
  funext x
  unfold iblk0
  rw [View.read_apply]
  refine congrArg (V c main_arg2) (funext fun a => Fin.ext ?_)
  match a with
  | ⟨0, _⟩ => show win0_2.index t (0 : Fin 2) * 192 + 1 * (x 0).val = (x 0).val; rw [e0]; omega
  | ⟨1, _⟩ => show win0_2.index t (1 : Fin 2) * 128 + 1 * (x 1).val = (x 1).val; rw [e1]; omega
theorem msg_b1_block (c : Dev nD) (t : Fin cfg0.N) : (iblk0 V c 3 t : S128.Idx → EReal) = V c main_arg3 := by
  obtain ⟨-, -, -, -, -, -, e0, -⟩ := msg_index t
  funext x
  unfold iblk0
  rw [View.read_apply]
  refine congrArg (V c main_arg3) (funext fun a => Fin.ext ?_)
  match a with
  | ⟨0, _⟩ => show win0_3.index t (0 : Fin 1) * 128 + 1 * (x 0).val = (x 0).val; rw [e0]; omega
theorem msg_w2_block (c : Dev nD) (t : Fin cfg0.N) : (iblk0 V c 4 t : S128x128.Idx → EReal) = V c main_arg4 := by
  obtain ⟨-, -, -, -, -, -, -, e0, e1, -⟩ := msg_index t
  funext x
  unfold iblk0
  rw [View.read_apply]
  refine congrArg (V c main_arg4) (funext fun a => Fin.ext ?_)
  match a with
  | ⟨0, _⟩ => show win0_4.index t (0 : Fin 2) * 128 + 1 * (x 0).val = (x 0).val; rw [e0]; omega
  | ⟨1, _⟩ => show win0_4.index t (1 : Fin 2) * 128 + 1 * (x 1).val = (x 1).val; rw [e1]; omega
theorem msg_b2_block (c : Dev nD) (t : Fin cfg0.N) : (iblk0 V c 5 t : S128.Idx → EReal) = V c main_arg5 := by
  obtain ⟨-, -, -, -, -, -, -, -, -, e0, -⟩ := msg_index t
  funext x
  unfold iblk0
  rw [View.read_apply]
  refine congrArg (V c main_arg5) (funext fun a => Fin.ext ?_)
  match a with
  | ⟨0, _⟩ => show win0_5.index t (0 : Fin 1) * 128 + 1 * (x 0).val = (x 0).val; rw [e0]; omega

/-- Row p of the gathered-features block at point t is the row of the whole array that row p of the output block is. -/
theorem msg_gx_rows (c : Dev nD) (t : Fin cfg0.N) (y : S6400x128.Idx) (k : Fin 128) :
    (iblk0 V c 0 t : S6400x128.Idx → EReal) (ix2 (y 0) k)
      = (V c main_v10 : S800000x128.Idx → EReal) (ix2 ((((cfg0.win 6).blk t).view.emb y) 0) k) := by
  obtain ⟨e0, e1, -, -, -, -, -, -, -, -, e6, -⟩ := msg_index t
  unfold iblk0
  rw [View.read_apply]
  refine congrArg (V c main_v10) (funext fun a => Fin.ext ?_)
  match a with
  | ⟨0, _⟩ => show win0_0.index t (0 : Fin 2) * 6400 + 1 * (y 0).val = win0_6.index t (0 : Fin 2) * 6400 + 1 * (y 0).val; rw [e0, e6]
  | ⟨1, _⟩ => show win0_0.index t (1 : Fin 2) * 128 + 1 * k.val = k.val; rw [e1]; omega
/-- The same for the edge encodings. -/
theorem msg_pe_rows (c : Dev nD) (t : Fin cfg0.N) (y : S6400x128.Idx) (k : Fin 64) :
    (iblk0 V c 1 t : S6400x64.Idx → EReal) (ix2 (y 0) k)
      = (V c main_arg1 : S800000x64.Idx → EReal) (ix2 ((((cfg0.win 6).blk t).view.emb y) 0) k) := by
  obtain ⟨-, -, e0, e1, -, -, -, -, -, -, e6, -⟩ := msg_index t
  unfold iblk0
  rw [View.read_apply]
  refine congrArg (V c main_arg1) (funext fun a => Fin.ext ?_)
  match a with
  | ⟨0, _⟩ => show win0_1.index t (0 : Fin 2) * 6400 + 1 * (y 0).val = win0_6.index t (0 : Fin 2) * 6400 + 1 * (y 0).val; rw [e0, e6]
  | ⟨1, _⟩ => show win0_1.index t (1 : Fin 2) * 64 + 1 * k.val = k.val; rw [e1]; omega

/-- What point t writes back is block t of `msgArr`. -/
theorem msg_flushed (c : Dev nD) (t : Fin cfg0.N) :
    (dat0 V c).flushed 6 t = ((cfg0.win 6).blk t).view.read (Elt Ideal) (msgArr V c) := by
  show (cfg0.win 6).cut (grid0.coords t) ((dat0 V c).after 6 t) = _
  rw [after0_6]
  unfold out0_6
  rw [View.canon_unit_zero zero2]
  simp only [View.ld_unit_zero (S := S6400x128) zero2, View.ld_unit_zero (S := S6400x64) zero2,
    View.ld_unit_zero (S := S192x128) zero2, View.ld_unit_zero (S := S128) zero1, View.ld_unit_zero (S := S128x128) zero2]
  rw [msg_payload (iblk0 V c 0 t) (iblk0 V c 1 t) (iblk0 V c 2 t) (iblk0 V c 3 t) (iblk0 V c 4 t) (iblk0 V c 5 t)]
  rw [msg_w1_block, msg_b1_block, msg_w2_block, msg_b2_block]
  funext y
  obtain ⟨-, -, -, -, -, -, -, -, -, -, -, e61⟩ := msg_index t
  exact mlp_congr (K1 := 128) (K2 := 64) (K := 192) rfl (iblk0 V c 0 t) (iblk0 V c 1 t) (V c main_v10) (V c main_arg1)
    (V c main_arg2) (shapeCast S1x128 (V c main_arg3) shapeCasts_S128_S1x128) (V c main_arg4)
    (shapeCast S1x128 (V c main_arg5) shapeCasts_S128_S1x128) y (((cfg0.win 6).blk t).view.emb y)
    (by show (y 1).val = win0_6.index t (1 : Fin 2) * 128 + 1 * (y 1).val; rw [e61]; omega)
    (msg_gx_rows V c t y) (msg_pe_rows V c t y)

/-- An index of the messages array is in point t's block iff each coordinate is in the block's range. -/
theorem msg_mem_blk (t : Fin cfg0.N) (i : S800000x128.Idx) :
    i ∈ ((cfg0.win 6).blk t).view.set ↔ ∀ a : Fin 2, win0_6.index t a * S6400x128.size a ≤ (i a).val ∧ (i a).val < win0_6.index t a * S6400x128.size a + S6400x128.size a := by
  show i ∈ ((View.whole main_v11).slice (win0_6.rect t)).set ↔ _
  rw [View.set_slice_whole, Rect.mem_set_unit]
  exact Iff.rfl

/-- The messages array after the region: `msgArr`. -/
theorem msg_final (c : Dev nD) : (dat0 V c).arrAt 6 cfg0.N = msgArr V c :=
  (dat0 V c).arrAt_eq_of_cover 6 (msgArr V c) (fun t _ => msg_flushed V c t) fun i => by
    have hi0 : (i 0).val < 800000 := (i 0).isLt
    have hi1 : (i 1).val < 128 := (i 1).isLt
    have hN : cfg0.N = 125 := N_0
    refine ⟨⟨(i 0).val / 6400, by rw [hN]; omega⟩, flush0_6 _, ?_⟩
    obtain ⟨-, -, -, -, -, -, -, -, -, -, e60, e61⟩ := msg_index ⟨(i 0).val / 6400, by rw [hN]; omega⟩
    rw [msg_mem_blk]
    intro a
    match a with
    | ⟨0, _⟩ =>
      show win0_6.index _ (0 : Fin 2) * 6400 ≤ (i 0).val ∧ (i 0).val < win0_6.index _ (0 : Fin 2) * 6400 + 6400
      rw [e60]; show (i 0).val / 6400 * 6400 ≤ (i 0).val ∧ (i 0).val < (i 0).val / 6400 * 6400 + 6400; omega
    | ⟨1, _⟩ =>
      show win0_6.index _ (1 : Fin 2) * 128 ≤ (i 1).val ∧ (i 1).val < win0_6.index _ (1 : Fin 2) * 128 + 128
      rw [e61]; omega

end Cert.KernelIdeal.Hand

end
-- ==== Proof.UpdateRegion.lean ====
/-
  The update region: what its output array holds after the 10 grid points.

  Point t of the grid loads rows 5000·t … 5000·t + 4999 of the node features and of the aggregated messages, and the
  whole weights; it writes back rows 5000·t … 5000·t + 4999 of the result.  The perceptron's row r reads only row r
  of its two row operands, so what point t writes back is rows 5000·t … of ONE array: the perceptron of the whole
  node features and the whole aggregated messages (`updArr`).  The 10 blocks tile the 50000 rows, so that array is
  what the output holds at the end (`upd_final`).  All of it at whatever the region finds in its arrays when it is
  entered (`V`).
-/
import proofs.«159853_j72181220376644_2_alg».proof.Proof.Gen.KernelIdeal.Frame
import proofs.«159853_j72181220376644_2_alg».proof.Proof.Payloads
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.CatMlp

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a <;> rfl

/-- The result as one array: the perceptron of the node features and the aggregated messages as the region finds them. -/
def updArr (c : Dev nD) : S50000x128.Idx → EReal :=
  mlp (K1 := 128) (K2 := 128) (K := 256) rfl (V c main_arg0) (V c main_v15) (V c main_arg6)
    (shapeCast S1x128 (V c main_arg7) shapeCasts_S128_S1x128) (V c main_arg8)
    (shapeCast S1x128 (V c main_arg9) shapeCasts_S128_S1x128)

/-- The block indices of the seven windows at grid point t: the row windows move with t, the weights stay. -/
theorem upd_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- The weight windows' blocks are the whole arrays. -/
theorem upd_u1_block (c : Dev nD) (t : Fin cfg1.N) : (iblk1 V c 2 t : S256x128.Idx → EReal) = V c main_arg6 := by
  obtain ⟨-, -, -, -, e0, e1, -⟩ := upd_index t
  funext x
  unfold iblk1
  rw [View.read_apply]
  refine congrArg (V c main_arg6) (funext fun a => Fin.ext ?_)
  match a with
  | ⟨0, _⟩ => show win1_2.index t (0 : Fin 2) * 256 + 1 * (x 0).val = (x 0).val; rw [e0]; omega
  | ⟨1, _⟩ => show win1_2.index t (1 : Fin 2) * 128 + 1 * (x 1).val = (x 1).val; rw [e1]; omega
theorem upd_c1_block (c : Dev nD) (t : Fin cfg1.N) : (iblk1 V c 3 t : S128.Idx → EReal) = V c main_arg7 := by
  obtain ⟨-, -, -, -, -, -, e0, -⟩ := upd_index t
  funext x
  unfold iblk1
  rw [View.read_apply]
  refine congrArg (V c main_arg7) (funext fun a => Fin.ext ?_)
  match a with
  | ⟨0, _⟩ => show win1_3.index t (0 : Fin 1) * 128 + 1 * (x 0).val = (x 0).val; rw [e0]; omega
theorem upd_u2_block (c : Dev nD) (t : Fin cfg1.N) : (iblk1 V c 4 t : S128x128.Idx → EReal) = V c main_arg8 := by
  obtain ⟨-, -, -, -, -, -, -, e0, e1, -⟩ := upd_index t
  funext x
  unfold iblk1
  rw [View.read_apply]
  refine congrArg (V c main_arg8) (funext fun a => Fin.ext ?_)
  match a with
  | ⟨0, _⟩ => show win1_4.index t (0 : Fin 2) * 128 + 1 * (x 0).val = (x 0).val; rw [e0]; omega
  | ⟨1, _⟩ => show win1_4.index t (1 : Fin 2) * 128 + 1 * (x 1).val = (x 1).val; rw [e1]; omega
theorem upd_c2_block (c : Dev nD) (t : Fin cfg1.N) : (iblk1 V c 5 t : S128.Idx → EReal) = V c main_arg9 := by
  obtain ⟨-, -, -, -, -, -, -, -, -, e0, -⟩ := upd_index t
  funext x
  unfold iblk1
  rw [View.read_apply]
  refine congrArg (V c main_arg9) (funext fun a => Fin.ext ?_)
  match a with
  | ⟨0, _⟩ => show win1_5.index t (0 : Fin 1) * 128 + 1 * (x 0).val = (x 0).val; rw [e0]; omega

/-- Row p of the node-features block at point t is the row of the whole array that row p of the output block is. -/
theorem upd_x_rows (c : Dev nD) (t : Fin cfg1.N) (y : S5000x128.Idx) (k : Fin 128) :
    (iblk1 V c 0 t : S5000x128.Idx → EReal) (ix2 (y 0) k)
      = (V c main_arg0 : S50000x128.Idx → EReal) (ix2 ((((cfg1.win 6).blk t).view.emb y) 0) k) := by
  obtain ⟨e0, e1, -, -, -, -, -, -, -, -, e6, -⟩ := upd_index t
  unfold iblk1
  rw [View.read_apply]
  refine congrArg (V c main_arg0) (funext fun a => Fin.ext ?_)
  match a with
  | ⟨0, _⟩ => show win1_0.index t (0 : Fin 2) * 5000 + 1 * (y 0).val = win1_6.index t (0 : Fin 2) * 5000 + 1 * (y 0).val; rw [e0, e6]
  | ⟨1, _⟩ => show win1_0.index t (1 : Fin 2) * 128 + 1 * k.val = k.val; rw [e1]; omega
/-- The same for the aggregated messages. -/
theorem upd_agg_rows (c : Dev nD) (t : Fin cfg1.N) (y : S5000x128.Idx) (k : Fin 128) :
    (iblk1 V c 1 t : S5000x128.Idx → EReal) (ix2 (y 0) k)
      = (V c main_v15 : S50000x128.Idx → EReal) (ix2 ((((cfg1.win 6).blk t).view.emb y) 0) k) := by
  obtain ⟨-, -, e0, e1, -, -, -, -, -, -, e6, -⟩ := upd_index t
  unfold iblk1
  rw [View.read_apply]
  refine congrArg (V c main_v15) (funext fun a => Fin.ext ?_)
  match a with
  | ⟨0, _⟩ => show win1_1.index t (0 : Fin 2) * 5000 + 1 * (y 0).val = win1_6.index t (0 : Fin 2) * 5000 + 1 * (y 0).val; rw [e0, e6]
  | ⟨1, _⟩ => show win1_1.index t (1 : Fin 2) * 128 + 1 * k.val = k.val; rw [e1]; omega

/-- What point t writes back is block t of `updArr`. -/
theorem upd_flushed (c : Dev nD) (t : Fin cfg1.N) :
    (dat1 V c).flushed 6 t = ((cfg1.win 6).blk t).view.read (Elt Ideal) (updArr V c) := by
  show (cfg1.win 6).cut (grid1.coords t) ((dat1 V c).after 6 t) = _
  rw [after1_6]
  unfold out1_6
  rw [View.canon_unit_zero origin2]
  simp only [View.ld_unit_zero (S := S5000x128) origin2, View.ld_unit_zero (S := S256x128) origin2,
    View.ld_unit_zero (S := S128) origin1, View.ld_unit_zero (S := S128x128) origin2]
  rw [upd_payload (iblk1 V c 0 t) (iblk1 V c 1 t) (iblk1 V c 2 t) (iblk1 V c 3 t) (iblk1 V c 4 t) (iblk1 V c 5 t)]
  rw [upd_u1_block, upd_c1_block, upd_u2_block, upd_c2_block]
  funext y
  obtain ⟨-, -, -, -, -, -, -, -, -, -, -, e61⟩ := upd_index t
  exact mlp_congr (K1 := 128) (K2 := 128) (K := 256) rfl (iblk1 V c 0 t) (iblk1 V c 1 t) (V c main_arg0) (V c main_v15)
    (V c main_arg6) (shapeCast S1x128 (V c main_arg7) shapeCasts_S128_S1x128) (V c main_arg8)
    (shapeCast S1x128 (V c main_arg9) shapeCasts_S128_S1x128) y (((cfg1.win 6).blk t).view.emb y)
    (by show (y 1).val = win1_6.index t (1 : Fin 2) * 128 + 1 * (y 1).val; rw [e61]; omega)
    (upd_x_rows V c t y) (upd_agg_rows V c t y)

/-- An index of the result array is in point t's block iff each coordinate is in the block's range. -/
theorem upd_mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v16).slice (win1_6.rect t)).set ↔ _
  rw [View.set_slice_whole, Rect.mem_set_unit]
  exact Iff.rfl

/-- The result array after the region: `updArr`. -/
theorem upd_final (c : Dev nD) : (dat1 V c).arrAt 6 cfg1.N = updArr V c :=
  (dat1 V c).arrAt_eq_of_cover 6 (updArr V c) (fun t _ => upd_flushed V c t) fun i => by
    have hi0 : (i 0).val < 50000 := (i 0).isLt
    have hi1 : (i 1).val < 128 := (i 1).isLt
    have hN : cfg1.N = 10 := N_1
    refine ⟨⟨(i 0).val / 5000, by rw [hN]; omega⟩, flush1_6 _, ?_⟩
    obtain ⟨-, -, -, -, -, -, -, -, -, -, e60, e61⟩ := upd_index ⟨(i 0).val / 5000, by rw [hN]; omega⟩
    rw [upd_mem_blk]
    intro a
    match a with
    | ⟨0, _⟩ =>
      show win1_6.index _ (0 : Fin 2) * 5000 ≤ (i 0).val ∧ (i 0).val < win1_6.index _ (0 : Fin 2) * 5000 + 5000
      rw [e60]; show (i 0).val / 5000 * 5000 ≤ (i 0).val ∧ (i 0).val < (i 0).val / 5000 * 5000 + 5000; omega
    | ⟨1, _⟩ =>
      show win1_6.index _ (1 : Fin 2) * 128 ≤ (i 1).val ∧ (i 1).val < win1_6.index _ (1 : Fin 2) * 128 + 128
      rw [e61]; omega

end Cert.KernelIdeal.Hand

end
-- ==== Proof.RefStages.lean ====
/-
  The reference's stages as functions of the argument arrays, at the ideal values.

  The reference gathers each edge's source-node row, runs the message perceptron on (gathered row | edge
  encoding), adds every edge's message into its destination node's row, and runs the update perceptron on
  (node row | aggregated row).  Named here: the two index columns cut out of the edge list (`srcCol`, a negative
  source wrapped by the node count; `dstCol`), the gather and the scatter-add into zeros (`gathered`,
  `aggregated`) — these four the kernel's program computes with the very same host operations, so they are never
  opened —, a bias vector as a row (`biasRow`), and the whole result (`result`).  The two dense stages in the host's
  spelling are the perceptron `Cert.Lib.CatMlp.mlp` (`msg_host`, `upd_host`).
-/
import proofs.«159853_j72181220376644_2_alg».proof.Proof.Gen.ReferenceIdeal
import proofs.«159853_j72181220376644_2_alg».proof.Proof.LibCatMlp

noncomputable section

namespace Cert.ReferenceIdeal.RefValue

open Cert.ReferenceIdeal Cert.ReferenceIdeal.Gen
open Idealize.ShloMosaic Idealize.ShloMosaic.ValueIdx Cert.Lib.PlainDot Cert.Lib.CatMlp

/-- Each edge's source node as a column of indices, a negative index wrapped by the node count. -/
def srcCol (ei : (⟨S2x800000, .i32⟩ : BufTy).Contents (Elt Ideal)) : (⟨S800000x1, .i32⟩ : BufTy).Contents (Elt Ideal) :=
  broadcastInDim S800000x1 ![0] bcast_S800000_S800000x1_0
    (select (cmpi .slt (shapeCast S800000 (extractStridedSlice S1x800000 ![0, 0] ei slices_S2x800000_S1x800000_0_0) shapeCasts_S1x800000_S800000)
        (broadcastInDim S800000 ![] bcast_S_S800000 (constantI S_ 32 0#32)))
      (addi (shapeCast S800000 (extractStridedSlice S1x800000 ![0, 0] ei slices_S2x800000_S1x800000_0_0) shapeCasts_S1x800000_S800000)
        (broadcastInDim S800000 ![] bcast_S_S800000 (constantI S_ 32 50000#32)))
      (shapeCast S800000 (extractStridedSlice S1x800000 ![0, 0] ei slices_S2x800000_S1x800000_0_0) shapeCasts_S1x800000_S800000))

/-- Each edge's destination node as a column of indices. -/
def dstCol (ei : (⟨S2x800000, .i32⟩ : BufTy).Contents (Elt Ideal)) : (⟨S800000x1, .i32⟩ : BufTy).Contents (Elt Ideal) :=
  broadcastInDim S800000x1 ![0] bcast_S800000_S800000x1_0
    (shapeCast S800000 (extractStridedSlice S1x800000 ![1, 0] ei slices_S2x800000_S1x800000_1_0) shapeCasts_S1x800000_S800000)

/-- Row e: the features of edge e's source node. -/
def gathered (x : (⟨S50000x128, .f32⟩ : BufTy).Contents (Elt Ideal)) (ei : (⟨S2x800000, .i32⟩ : BufTy).Contents (Elt Ideal)) :
    (⟨S800000x128, .f32⟩ : BufTy).Contents (Elt Ideal) :=
  Host.gather gather_S50000x128_S800000x1_S800000x128_1_0_n_n_0_1_1128 x (srcCol ei)

/-- Row n: the sum of the messages of the edges whose destination is node n. -/
def aggregated (ei : (⟨S2x800000, .i32⟩ : BufTy).Contents (Elt Ideal)) (msgs : (⟨S800000x128, .f32⟩ : BufTy).Contents (Elt Ideal)) :
    (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32)) (dstCol ei) msgs

/-- A bias vector [128] as the row [1, 128]. -/
def biasRow (v : FVec Ideal S128 .f32) : FVec Ideal S1x128 .f32 := broadcastInDim S1x128 ![1] bcast_S128_S1x128_1 v

/-- The whole computation: gather, message perceptron, scatter-add, update perceptron. -/
def result (x : FVec Ideal S50000x128 .f32) (pe : FVec Ideal S800000x64 .f32) (w1 : FVec Ideal S192x128 .f32) (b1 : FVec Ideal S128 .f32)
    (w2 : FVec Ideal S128x128 .f32) (b2 : FVec Ideal S128 .f32) (u1 : FVec Ideal S256x128 .f32) (c1 : FVec Ideal S128 .f32)
    (u2 : FVec Ideal S128x128 .f32) (c2 : FVec Ideal S128 .f32) (ei : (⟨S2x800000, .i32⟩ : BufTy).Contents (Elt Ideal)) :
    FVec Ideal S50000x128 .f32 :=
  mlp (K1 := 128) (K2 := 128) (K := 256) rfl x
    (aggregated ei (mlp (K1 := 128) (K2 := 64) (K := 192) rfl (gathered x ei) pe w1 (biasRow b1) w2 (biasRow b2)))
    u1 (biasRow c1) u2 (biasRow c2)

theorem dot_msg1_plain : dot_S800000x192_S192x128_S800000x128_1_0_0_1_n_n = DotDims.plain 800000 192 128 :=
  eq_plain _ rfl rfl rfl rfl rfl rfl
theorem dot_msg2_plain : dot_S800000x128_S128x128_S800000x128_1_0_0_1_n_n = DotDims.plain 800000 128 128 :=
  eq_plain _ rfl rfl rfl rfl rfl rfl
theorem dot_upd1_plain : dot_S50000x256_S256x128_S50000x128_1_0_0_1_n_n = DotDims.plain 50000 256 128 :=
  eq_plain _ rfl rfl rfl rfl rfl rfl
theorem dot_upd2_plain : dot_S50000x128_S128x128_S50000x128_1_0_0_1_n_n = DotDims.plain 50000 128 128 :=
  eq_plain _ rfl rfl rfl rfl rfl rfl

/-- The message stage in the host's spelling is the perceptron of (gathered | encodings). -/
theorem msg_host (gx : FVec Ideal S800000x128 .f32) (pe : FVec Ideal S800000x64 .f32) (w1 : FVec Ideal S192x128 .f32)
    (b1 : FVec Ideal S128 .f32) (w2 : FVec Ideal S128x128 .f32) (b2 : FVec Ideal S128 .f32) :
    addf (Host.dotGeneral dot_S800000x128_S128x128_S800000x128_1_0_0_1_n_n none
          (maximumf (addf (Host.dotGeneral dot_S800000x192_S192x128_S800000x128_1_0_0_1_n_n none
                (concatenate S800000x192 1 [⟨S800000x128, gx⟩, ⟨S800000x64, pe⟩] concatenates_S800000x128_S800000x64_S800000x192_d1) w1)
              (broadcastInDim S800000x128 ![0, 1] bcast_S1x128_S800000x128_0_1 (broadcastInDim S1x128 ![1] bcast_S128_S1x128_1 b1)))
            (broadcastInDim S800000x128 ![] bcast_S_S800000x128 (constant (F := Ideal) S_ .f32 0x00000000#32))) w2)
        (broadcastInDim S800000x128 ![0, 1] bcast_S1x128_S800000x128_0_1 (broadcastInDim S1x128 ![1] bcast_S128_S1x128_1 b2))
      = mlp (K1 := 128) (K2 := 64) (K := 192) rfl gx pe w1 (biasRow b1) w2 (biasRow b2) := by
  rw [dot_msg1_plain, dot_msg2_plain]
  exact mlp_host_eq (K1 := 128) (K2 := 64) (K := 192) rfl (by decide) gx pe w1 b1 w2 b2 _ _ _ _ _ _

/-- The update stage in the host's spelling is the perceptron of (nodes | aggregated). -/
theorem upd_host (x : FVec Ideal S50000x128 .f32) (agg : FVec Ideal S50000x128 .f32) (u1 : FVec Ideal S256x128 .f32)
    (c1 : FVec Ideal S128 .f32) (u2 : FVec Ideal S128x128 .f32) (c2 : FVec Ideal S128 .f32) :
    addf (Host.dotGeneral dot_S50000x128_S128x128_S50000x128_1_0_0_1_n_n none
          (maximumf (addf (Host.dotGeneral dot_S50000x256_S256x128_S50000x128_1_0_0_1_n_n none
                (concatenate S50000x256 1 [⟨S50000x128, x⟩, ⟨S50000x128, agg⟩] concatenates_S50000x128_S50000x128_S50000x256_d1) u1)
              (broadcastInDim S50000x128 ![0, 1] bcast_S1x128_S50000x128_0_1 (broadcastInDim S1x128 ![1] bcast_S128_S1x128_1 c1)))
            (broadcastInDim S50000x128 ![] bcast_S_S50000x128 (constant (F := Ideal) S_ .f32 0x00000000#32))) u2)
        (broadcastInDim S50000x128 ![0, 1] bcast_S1x128_S50000x128_0_1 (broadcastInDim S1x128 ![1] bcast_S128_S1x128_1 c2))
      = mlp (K1 := 128) (K2 := 128) (K := 256) rfl x agg u1 (biasRow c1) u2 (biasRow c2) := by
  rw [dot_upd1_plain, dot_upd2_plain]
  exact mlp_host_eq (K1 := 128) (K2 := 128) (K := 256) rfl (by decide) x agg u1 c1 u2 c2 _ _ _ _ _ _

end Cert.ReferenceIdeal.RefValue

end
-- ==== Proof.Boundaries.lean ====
/-
  What each region finds in its arrays when it is entered.

  Before the message region the host cuts the edge list into its two rows, wraps negative sources, and gathers the
  source nodes' rows; between the regions it widens the bf16 messages to f32 (the identity at the ideal values) and adds
  them into zeros at the destinations.  Those are the reference's own operations on the same arguments
  (`gathered`, `aggregated` of the reference's stages): read back here from the folds of the two stretches.  No
  stretch and no region writes an argument array, so the weights and the node features reach each region as launched.
-/
import proofs.«159853_j72181220376644_2_alg».proof.Proof.Gen.KernelIdeal.Frame
import proofs.«159853_j72181220376644_2_alg».proof.Proof.RefStages
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## At the message region's entry -/

/-- The first window's array: the gathered source-node rows. -/
theorem entry0_gathered (c : Dev nD) :
    V1 m ρ c main_v10 = Cert.ReferenceIdeal.RefValue.gathered (m ((c : Thread nD τ).loc main_arg0)) (m ((c : Thread nD τ).loc main_arg10)) := by
  show StableHlo.after hostOps0 (W0 m ρ c) (Proc.devRef .tc main_v10) = _
  after_results <;> rfl

theorem entry0_arg1 (c : Dev nD) : V1 m ρ c main_arg1 = m ((c : Thread nD τ).loc main_arg1) := by
  show StableHlo.after hostOps0 (W0 m ρ c) (Proc.devRef .tc main_arg1) = _
  after_results <;> rfl
theorem entry0_arg2 (c : Dev nD) : V1 m ρ c main_arg2 = m ((c : Thread nD τ).loc main_arg2) := by
  show StableHlo.after hostOps0 (W0 m ρ c) (Proc.devRef .tc main_arg2) = _
  after_results <;> rfl
theorem entry0_arg3 (c : Dev nD) : V1 m ρ c main_arg3 = m ((c : Thread nD τ).loc main_arg3) := by
  show StableHlo.after hostOps0 (W0 m ρ c) (Proc.devRef .tc main_arg3) = _
  after_results <;> rfl
theorem entry0_arg4 (c : Dev nD) : V1 m ρ c main_arg4 = m ((c : Thread nD τ).loc main_arg4) := by
  show StableHlo.after hostOps0 (W0 m ρ c) (Proc.devRef .tc main_arg4) = _
  after_results <;> rfl
theorem entry0_arg5 (c : Dev nD) : V1 m ρ c main_arg5 = m ((c : Thread nD τ).loc main_arg5) := by
  show StableHlo.after hostOps0 (W0 m ρ c) (Proc.devRef .tc main_arg5) = _
  after_results <;> rfl

/-- The destination row of the edge list, cut out before the message region, is still there after it. -/
theorem dst_row (c : Dev nD) :
    W2 m ρ c (Proc.devRef .tc main_v3)
      = shapeCast S800000 (extractStridedSlice S1x800000 ![1, 0] (m ((c : Thread nD τ).loc main_arg10)) slices_S2x800000_S1x800000_1_0) shapeCasts_S1x800000_S800000 := by
  rw [W2_of_ne m ρ c main_v3 (by decide)]
  show StableHlo.after hostOps0 (W0 m ρ c) (Proc.devRef .tc main_v3) = _
  after_results <;> rfl

/-! ## At the update region's entry -/

/-- The second window's array: the messages the first region left, added into zeros at the destinations. -/
theorem entry1_aggregated (c : Dev nD) :
    V3 m ρ c main_v15 = Cert.ReferenceIdeal.RefValue.aggregated (m ((c : Thread nD τ).loc main_arg10))
      (extf (F := Ideal) (s := S800000x128) .f32 (W2 m ρ c (Proc.devRef .tc main_v11)) bitsLt_bf16_f32) := by
  show StableHlo.after hostOps1 (W2 m ρ c) (Proc.devRef .tc main_v15) = _
  after_results
  rw [dst_row]
  rfl

theorem entry1_arg0 (c : Dev nD) : V3 m ρ c main_arg0 = m ((c : Thread nD τ).loc main_arg0) := by
  show StableHlo.after hostOps1 (W2 m ρ c) (Proc.devRef .tc main_arg0) = _
  after_results
  rw [W2_of_ne m ρ c main_arg0 (by decide)]
  show StableHlo.after hostOps0 (W0 m ρ c) (Proc.devRef .tc main_arg0) = _
  after_results <;> rfl
theorem entry1_arg6 (c : Dev nD) : V3 m ρ c main_arg6 = m ((c : Thread nD τ).loc main_arg6) := by
  show StableHlo.after hostOps1 (W2 m ρ c) (Proc.devRef .tc main_arg6) = _
  after_results
  rw [W2_of_ne m ρ c main_arg6 (by decide)]
  show StableHlo.after hostOps0 (W0 m ρ c) (Proc.devRef .tc main_arg6) = _
  after_results <;> rfl
theorem entry1_arg7 (c : Dev nD) : V3 m ρ c main_arg7 = m ((c : Thread nD τ).loc main_arg7) := by
  show StableHlo.after hostOps1 (W2 m ρ c) (Proc.devRef .tc main_arg7) = _
  after_results
  rw [W2_of_ne m ρ c main_arg7 (by decide)]
  show StableHlo.after hostOps0 (W0 m ρ c) (Proc.devRef .tc main_arg7) = _
  after_results <;> rfl
theorem entry1_arg8 (c : Dev nD) : V3 m ρ c main_arg8 = m ((c : Thread nD τ).loc main_arg8) := by
  show StableHlo.after hostOps1 (W2 m ρ c) (Proc.devRef .tc main_arg8) = _
  after_results
  rw [W2_of_ne m ρ c main_arg8 (by decide)]
  show StableHlo.after hostOps0 (W0 m ρ c) (Proc.devRef .tc main_arg8) = _
  after_results <;> rfl
theorem entry1_arg9 (c : Dev nD) : V3 m ρ c main_arg9 = m ((c : Thread nD τ).loc main_arg9) := by
  show StableHlo.after hostOps1 (W2 m ρ c) (Proc.devRef .tc main_arg9) = _
  after_results
  rw [W2_of_ne m ρ c main_arg9 (by decide)]
  show StableHlo.after hostOps0 (W0 m ρ c) (Proc.devRef .tc main_arg9) = _
  after_results <;> rfl

end Cert.KernelIdeal.Hand

end
-- ==== Proof.KernelValue.lean ====
/-
  The idealized kernel program's result as a function of its arguments.

  Chaining the two regions through the host stretches between them: the update region leaves the perceptron of (node
  features | aggregated messages); the aggregated messages are the scatter-add, at the edges' destinations, of what the
  message region left; and that is the perceptron of (gathered source features | edge encodings).  The weights and
  biases reach both regions as launched, a bias vector recast as a row is the vector broadcast along its one axis, and
  widening the bf16 messages to f32 changes nothing at the ideal values.  So the result buffer ends holding the
  reference's `result` of the launch arguments.
-/
import proofs.«159853_j72181220376644_2_alg».proof.Proof.MessageRegion
import proofs.«159853_j72181220376644_2_alg».proof.Proof.UpdateRegion
import proofs.«159853_j72181220376644_2_alg».proof.Proof.Boundaries
import proofs.«159853_j72181220376644_2_alg».proof.Proof.LibHead

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Widening bf16 to f32 is the identity on extended reals. -/
theorem widen_eq (a : FVec Ideal S800000x128 .bf16) : extf .f32 a bitsLt_bf16_f32 = a := rfl

/-- A bias vector recast as a row is the reference's row of it. -/
theorem row_eq (v : FVec Ideal S128 .f32) :
    shapeCast S1x128 v shapeCasts_S128_S1x128 = Cert.ReferenceIdeal.RefValue.biasRow v :=
  Cert.Lib.Head.rowCast_eq_inDim v shapeCasts_S128_S1x128 Cert.ReferenceIdeal.Gen.bcast_S128_S1x128_1

/-- What the update region's output array holds at the end, in the launch arguments. -/
theorem kernel_result (c : Dev nD) :
    (dat1 (V3 m ρ) c).arrAt 6 cfg1.N = Cert.ReferenceIdeal.RefValue.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have e11 : W2 m ρ c (Proc.devRef .tc main_v11) = (dat0 (V1 m ρ) c).arrAt 6 cfg0.N := W2_arr m ρ c 6
  rw [upd_final]
  unfold updArr
  rw [entry1_arg0, entry1_arg6, entry1_arg7, entry1_arg8, entry1_arg9, entry1_aggregated, e11, msg_final, widen_eq]
  unfold msgArr
  rw [entry0_gathered, entry0_arg1, entry0_arg2, entry0_arg3, entry0_arg4, entry0_arg5]
  rw [row_eq, row_eq, row_eq, row_eq]
  rfl

end Cert.KernelIdeal.Hand

end
-- ==== Proof.lean ====
/-
  The certificate of a message-passing layer: for every edge gather the source node's features, run a two-layer
  perceptron on (source features | edge encoding), add the messages into their destination nodes, and run a second
  two-layer perceptron on (node features | aggregated messages).

  The kernel program runs the two perceptrons as row-tiled kernels (125 tiles of 6400 edges, 10 tiles of 5000
  nodes), rounding matmul operands and the stored messages to bf16; the gather, the scatter-add and the index
  preparation are the reference's own host operations.  At the ideal values rounding is the identity and a matmul
  into a zero accumulator is the textbook product, so each kernel body computes the perceptron of the rows it loads;
  a perceptron's row depends only on the same row of its operands, so the tiles assemble into the perceptron of the
  whole arrays — which is what the reference's concatenate, dot_general, bias broadcast and maximum compute.  No law
  of the extended reals beyond equality of the same sums is used, so the precondition is not opened.

  The three frames are the generated ones (the reference's is its generated run with the result dropped); the
  idealization rewrote no operation; the value claim is assembled from the modules under Proof/.
-/
import proofs.«159853_j72181220376644_2_alg».proof.Defs
import proofs.«159853_j72181220376644_2_alg».proof.Proof.Gen.Kernel
import proofs.«159853_j72181220376644_2_alg».proof.Proof.Gen.Kernel.Frame
import proofs.«159853_j72181220376644_2_alg».proof.Proof.Gen.KernelIdeal
import proofs.«159853_j72181220376644_2_alg».proof.Proof.Gen.KernelIdeal.Frame
import proofs.«159853_j72181220376644_2_alg».proof.Proof.Gen.ReferenceIdeal
import proofs.«159853_j72181220376644_2_alg».proof.Proof.Gen.Pre_finite_inputs
import proofs.«159853_j72181220376644_2_alg».proof.Proof.Gen.ReferenceIdeal.Run
import proofs.«159853_j72181220376644_2_alg».proof.Proof.KernelRun
import proofs.«159853_j72181220376644_2_alg».proof.Proof.KernelValue
import proofs.«159853_j72181220376644_2_alg».proof.Proof.RefStages
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result buffer at the reference's `result` of the (agreeing) arguments: the kernel
    program by its two regions' arrays chained through the host stretches, the reference by its two dense stages
    read as perceptrons. -/
theorem algebraic : Cert.algebraic_KernelIdeal_ReferenceIdeal := by
  intro m ρ m' ρ' _ hagree
  refine ⟨fun c => Cert.ReferenceIdeal.RefValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Hand.kernel_result m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10⟩ := hagree c
    rw [e0, e1, e2, e3, e4, e5, e6, e7, e8, e9, e10]
    rw [Cert.ReferenceIdeal.RefValue.upd_host, Cert.ReferenceIdeal.RefValue.msg_host]
    rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
